-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S4096x64 : Shape := ⟨2, ![4096, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S32768x64 .f32) (main_arg1 : FVec F S4096x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S32768x64 : Shape := ⟨2, ![32768, 64]⟩
abbrev S4096x64 : Shape := ⟨2, ![4096, 64]⟩
abbrev S_ : Shape := ⟨0, ![]⟩
abbrev S4096 : Shape := ⟨1, ![4096]⟩
abbrev S1x4096 : Shape := ⟨2, ![1, 4096]⟩
abbrev S32768x4096 : Shape := ⟨2, ![32768, 4096]⟩
abbrev S1024x64 : Shape := ⟨2, ![1024, 64]⟩
abbrev S1024x4096 : Shape := ⟨2, ![1024, 4096]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S32768x64, .f32⟩
  | .hbm, ⟨1, _⟩ => ⟨S4096x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S32768x4096, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1x4096, .f32⟩
  | .local _ .vmem, ⟨4, _⟩ => ⟨S1024x4096, .f32⟩
  | .local _ .vmem, ⟨5, _⟩ => ⟨S1024x4096, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4096x64_S4096_d1 : S4096x64.ReducesTo [1] S4096
  h_S_ : 0 < S_.numel
  shapeCasts_S4096_S1x4096 : S4096.ShapeCasts S1x4096
  inb_S1024x64_S1024x64_0_0 : ∀ a, (![0, 0] : Fin 2 → Nat) a + S1024x64.size a ≤ S1024x64.size a
  h_S1024x64 : 0 < S1024x64.numel
  inb_S4096x64_S4096x64_0_0 : ∀ a, (![0, 0] : Fin 2 → Nat) a + S4096x64.size a ≤ S4096x64.size a
  h_S4096x64 : 0 < S4096x64.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1024x64_S1024 : S1024x64.Reduces [1] S1024
  shapeCasts_S1024_S1024x1 : S1024.ShapeCasts S1024x1
  broadcasts_S1024x1_S1024x4096 : S1024x1.Broadcasts S1024x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S32768x4096.size a
  hwx0_3 : ∀ i : grid0.Coords, EltTy.bits .f32 = 32 ∨ (Rect.block (s := S32768x4096) S1024x4096.size (cc0_transform_3 i) (hinb0_3 i)).WholeWords (EltTy.packing .f32)

variable [Facts₀]

def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x64 : Shape := ⟨2, ![32768, 64]⟩
abbrev S4096x64 : Shape := ⟨2, ![4096, 64]⟩
abbrev S_ : Shape := ⟨0, ![]⟩
abbrev S32768 : Shape := ⟨1, ![32768]⟩
abbrev S4096 : Shape := ⟨1, ![4096]⟩
abbrev S32768x4096 : Shape := ⟨2, ![32768, 4096]⟩
abbrev S32768x1 : Shape := ⟨2, ![32768, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S4096x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S4096x64, .f32⟩
  | .hbm, ⟨6, _⟩ => ⟨S_, .f32⟩
  | .hbm, ⟨7, _⟩ => ⟨S4096, .f32⟩
  | .hbm, ⟨8, _⟩ => ⟨S32768x4096, .f32⟩
  | .hbm, ⟨9, _⟩ => ⟨S_, .f32⟩
  | .hbm, ⟨10, _⟩ => ⟨S32768x4096, .f32⟩
  | .hbm, ⟨11, _⟩ => ⟨S32768x4096, .f32⟩
  | .hbm, ⟨12, _⟩ => ⟨S32768x1, .f32⟩
  | .hbm, ⟨13, _⟩ => ⟨S32768x4096, .f32⟩
  | .hbm, ⟨14, _⟩ => ⟨S32768x4096, .f32⟩
  | .hbm, ⟨15, _⟩ => ⟨S1x4096, .f32⟩
  | .hbm, ⟨16, _⟩ => ⟨S32768x4096, .f32⟩
  | .hbm, ⟨17, _⟩ => ⟨S32768x4096, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  reducesTo_S4096x64_S4096_d1 : S4096x64.ReducesTo [1] S4096
  bcast_S_S32768x4096 : S_.BroadcastsInDim S32768x4096 (![] : Fin 0 → Fin S32768x4096.rank)
  bcast_S32768_S32768x1_0 : S32768.BroadcastsInDim S32768x1 (![0] : Fin 1 → Fin S32768x1.rank)
  bcast_S32768x1_S32768x4096_0_1 : S32768x1.BroadcastsInDim S32768x4096 (![0, 1] : Fin 2 → Fin S32768x4096.rank)
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  dot_S32768x64_S4096x64_S32768x4096_1_1_0_0_n_n_wf : DotDims.WF S32768x64 S4096x64 S32768x4096 [1] [1] [0] [0] [] []

variable [Facts₀]

def dot_S32768x64_S4096x64_S32768x4096_1_1_0_0_n_n : DotDims S32768x64 S4096x64 S32768x4096 where
  lhsContracting := [1]
  rhsContracting := [1]
  lhsNonContracting := [0]
  rhsNonContracting := [0]
  lhsBatch := []
  rhsBatch := []
  wf := dot_S32768x64_S4096x64_S32768x4096_1_1_0_0_n_n_wf

class Facts : Prop extends Facts₀ where

variable [Facts]
-- ==== Proof.SqDist.lean ====
/-
  The function both programs compute, as one formula on the extended reals.

  For an array `x` of 32768 rows and an array `w` of 4096 rows, each row of 64 entries, the entry at row `r`, column `c`
  of the result is

      2 · ⟨x_r, w_c⟩ − ⟨x_r, x_r⟩ − ⟨w_c, w_c⟩,

  the negated squared distance −‖x_r − w_c‖² with the square expanded. The three inner products are finite sums over
  the 64 entries of a row; the constant is the f32 word `0x40000000` (the number two), carried as the word on both sides and
  never evaluated. Subtraction is the extended reals' own, applied in this order: first the norm of the row of `x`, then
  the norm of the row of `w`. Nothing here needs the entries to be finite, since both programs compute exactly this expression.
-/
import Idealize.ShloMosaic.PureOps.Ideal
import Idealize.ShloMosaic.Lib.ValueIdx

noncomputable section

namespace Cert.SqDist

open Idealize.ShloMosaic Idealize.ShloMosaic.ValueIdx

/-- The inner product of row `r` of `a` with row `c` of `b`: the sum over the 64 shared coordinates. -/
def dot {A B : Nat} (a : (⟨2, ![A, 64]⟩ : Shape).Idx → EReal) (b : (⟨2, ![B, 64]⟩ : Shape).Idx → EReal) (r : Fin A) (c : Fin B) : EReal :=
  ∑ k : Fin 64, a (ix2 r k) * b (ix2 c k)

/-- Row `r` of `x` against row `c` of `w`: twice their inner product, less the squared norm of each. -/
def entry (x : (⟨2, ![32768, 64]⟩ : Shape).Idx → EReal) (w : (⟨2, ![4096, 64]⟩ : Shape).Idx → EReal)
    (r : Fin 32768) (c : Fin 4096) : EReal :=
  Ideal.ofBits .f32 0x40000000#32 * dot x w r c - dot x x r r - dot w w c c

/-- The whole result array: `entry` at each index's two coordinates. -/
def logits (x : (⟨2, ![32768, 64]⟩ : Shape).Idx → EReal) (w : (⟨2, ![4096, 64]⟩ : Shape).Idx → EReal) :
    (⟨2, ![32768, 4096]⟩ : Shape).Idx → EReal :=
  fun i => entry x w (i 0) (i 1)

theorem logits_ix2 (x : (⟨2, ![32768, 64]⟩ : Shape).Idx → EReal) (w : (⟨2, ![4096, 64]⟩ : Shape).Idx → EReal)
    (r : Fin 32768) (c : Fin 4096) : logits x w (ix2 r c) = entry x w r c := rfl

end Cert.SqDist

end
-- ==== Proof.KernelEntry.lean ====
/-
  One entry of what the kernel body stores, at the extended reals.

  The body holds a block of 1024 rows of `x`, all 4096 rows of `w`, and a row vector of 4096 numbers `n` (in the program
  it is the squared norms of the rows of `w`, but here it is any row vector). At row `p`, column `q` of its 1024 × 4096
  result it stores

      2 · (∑ₖ x[p,k] · w[q,k]) − (∑ₖ x[p,k] · x[p,k]) − n[0,q].

  The matrix product into a zero accumulator is the first sum; the lane reduction of the squares is the second, kept as a
  column [1024, 1] and repeated along the columns; the row vector is repeated along the rows.
-/
import proofs.«140458_j12446815224431_2_alg».proof.Proof.Gen.KernelIdeal.Skeleton
import proofs.«140458_j12446815224431_2_alg».proof.Proof.SqDist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx

/-! ## Two layout steps of a column of row sums -/

/-- A vector of `a` numbers viewed as a column `[a, 1]` reads, at `(p, u)`, the vector at `p`. -/
theorem column_of_vector {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated along `b` columns reads, at `(p, q)`, the column at `p`. -/
theorem column_repeated {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two reductions -/

/-- The lane reduction of a `[1024, 64]` block, at row `p`: the sum of the row's 64 entries. -/
theorem row_sum (src : FVec Ideal S1024x64 .f32) (h : S1024x64.Reduces [1] S1024) (hφ : FKind.Formats .f32)
    (hacc : (0x00000000#32 : BitVec 32) = 0x00000000#32) (p : Fin 1024) :
    multiReduction .add [1] S1024 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-! ## The matrix product -/

/-- The left operand's row is the output's row; -/
theorem lhs_row (i : S1024x4096.Idx) (κ : dot_S1024x64_S4096x64_S1024x4096_1_1_0_0_n_n.contr.Idx) :
    (dot_S1024x64_S4096x64_S1024x4096_1_1_0_0_n_n.lhsIdx i κ 0).val = (i 0).val := by
  unfold DotDims.lhsIdx
  rw [dif_neg (show ¬(0 : Fin S1024x64.rank) ∈ dot_S1024x64_S4096x64_S1024x4096_1_1_0_0_n_n.lhsBatch by decide),
    dif_pos (show (0 : Fin S1024x64.rank) ∈ dot_S1024x64_S4096x64_S1024x4096_1_1_0_0_n_n.lhsNonContracting by decide)]
  rfl
/-- its column is the contracted coordinate. -/
theorem lhs_col (i : S1024x4096.Idx) (κ : dot_S1024x64_S4096x64_S1024x4096_1_1_0_0_n_n.contr.Idx) :
    (dot_S1024x64_S4096x64_S1024x4096_1_1_0_0_n_n.lhsIdx i κ 1).val = (κ ⟨0, by decide⟩).val :=
  dot_S1024x64_S4096x64_S1024x4096_1_1_0_0_n_n.lhsIdx_val_of_single rfl i κ
/-- The right operand's row is the output's column; -/
theorem rhs_row (i : S1024x4096.Idx) (κ : dot_S1024x64_S4096x64_S1024x4096_1_1_0_0_n_n.contr.Idx) :
    (dot_S1024x64_S4096x64_S1024x4096_1_1_0_0_n_n.rhsIdx i κ 0).val = (i 1).val := by
  unfold DotDims.rhsIdx
  rw [dif_neg (show ¬(0 : Fin S4096x64.rank) ∈ dot_S1024x64_S4096x64_S1024x4096_1_1_0_0_n_n.rhsBatch by decide),
    dif_pos (show (0 : Fin S4096x64.rank) ∈ dot_S1024x64_S4096x64_S1024x4096_1_1_0_0_n_n.rhsNonContracting by decide)]
  rfl
/-- its column is the contracted coordinate too: both operands are contracted along their rows' 64 entries. -/
theorem rhs_col (i : S1024x4096.Idx) (κ : dot_S1024x64_S4096x64_S1024x4096_1_1_0_0_n_n.contr.Idx) :
    (dot_S1024x64_S4096x64_S1024x4096_1_1_0_0_n_n.rhsIdx i κ 1).val = (κ ⟨0, by decide⟩).val :=
  dot_S1024x64_S4096x64_S1024x4096_1_1_0_0_n_n.rhsIdx_val_of_single rfl i κ

/-- The matrix product into the zero accumulator, at `(p, q)`: the inner product of row `p` of the left operand with row
    `q` of the right. -/
theorem product_entry (x0 : FVec Ideal S1024x64 .f32) (x1 : FVec Ideal S4096x64 .f32) (p : Fin 1024) (q : Fin 4096) :
    matmul dot_S1024x64_S4096x64_S1024x4096_1_1_0_0_n_n (some .fp32) x0 x1 (constant S1024x4096 .f32 0x00000000#32) (ix2 p q)
      = SqDist.dot x0 x1 p q := by
  refine (Ideal.matmul_constant_zero_apply _ _ x0 x1 (ix2 p q)).trans ?_
  unfold SqDist.dot
  rw [← Equiv.sum_comp (contrEquiv1 dot_S1024x64_S4096x64_S1024x4096_1_1_0_0_n_n 64 rfl rfl).symm]
  refine Finset.sum_congr rfl fun k _ => ?_
  have hk := contrEquiv1_symm_val dot_S1024x64_S4096x64_S1024x4096_1_1_0_0_n_n 64 rfl rfl k
  have el : dot_S1024x64_S4096x64_S1024x4096_1_1_0_0_n_n.lhsIdx (ix2 p q) ((contrEquiv1 dot_S1024x64_S4096x64_S1024x4096_1_1_0_0_n_n 64 rfl rfl).symm k) = ix2 p k :=
    funext fun a => Fin.ext (by
      match a with
      | ⟨0, _⟩ => exact lhs_row _ _
      | ⟨1, _⟩ => exact (lhs_col _ _).trans hk)
  have er : dot_S1024x64_S4096x64_S1024x4096_1_1_0_0_n_n.rhsIdx (ix2 p q) ((contrEquiv1 dot_S1024x64_S4096x64_S1024x4096_1_1_0_0_n_n 64 rfl rfl).symm k) = ix2 q k :=
    funext fun a => Fin.ext (by
      match a with
      | ⟨0, _⟩ => exact rhs_row _ _
      | ⟨1, _⟩ => exact (rhs_col _ _).trans hk)
  rw [el, er]

/-! ## The stored value -/

/-- What the body stores at `(p, q)`. -/
theorem pay_entry (x0 : Vec Ideal S1024x64 .f32) (x1 : Vec Ideal S4096x64 .f32) (x2 : Vec Ideal S1x4096 .f32) (p : Fin 1024) (q : Fin 4096) :
    k0_pay1 x0 x1 x2 (ix2 p q)
      = Ideal.ofBits .f32 0x40000000#32 * SqDist.dot x0 x1 p q - SqDist.dot x0 x0 p p - x2 (ix2 (0 : Fin 1) q) := by
  unfold k0_pay1
  refine congrArg₂ (· - ·) (congrArg₂ (· - ·) (congrArg₂ (· * ·) rfl ?_) ?_) ?_
  · exact product_entry x0 x1 p q
  · refine (column_repeated _ _ p q).trans ?_
    refine (column_of_vector _ _ p 0).trans ?_
    refine (row_sum _ _ _ _ p).trans ?_
    rfl
  · refine (broadcastTo_1b_ab_apply _ _ p q).trans ?_
    rw [shapeCast_self]

end Cert.KernelIdeal.Entry

end
-- ==== Proof.Norms.lean ====
/-
  The row vector the region finds beside `x` and `w`.

  Before the kernel is launched the host squares `w` entry by entry, sums each row of squares starting from the zero word,
  and views the 4096 sums as one row `[1, 4096]`. So at `(0, q)` the region's third operand holds

      0 + ∑ₖ w[q,k] · w[q,k]  =  ⟨w_q, w_q⟩,

  the squared norm of row `q` of `w` (the zero word is the number zero).
-/
import proofs.«140458_j12446815224431_2_alg».proof.Proof.Gen.KernelIdeal.Frame
import proofs.«140458_j12446815224431_2_alg».proof.Proof.SqDist
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Norms

open Cert.KernelIdeal Cert.KernelIdeal.Gen Idealize.ShloMosaic Idealize.ShloMosaic.TcCoe Idealize.ShloMosaic.ValueIdx
open Idealize.SL.Sem Idealize.ShloMosaic.StableHlo

/-- The host's sum of each row of a `[4096, 64]` array from the zero word, at row `q`: the sum of the row's 64 entries. -/
theorem host_row_sum (y : FVec Ideal S4096x64 .f32) (q : Fin 4096) :
    Host.reduceAdd (F := Ideal) y (constant (F := Ideal) S_ .f32 0x00000000#32) reducesTo_S4096x64_S4096_d1 h_S_ (ix1 q)
      = ∑ k : Fin 64, y (ix2 q k) := by
  simp only [Host.reduceAdd, Ideal.hostReduceAdd_def]
  rw [Ideal.hostReduceAdd_single reducesTo_S4096x64_S4096_d1 (by decide)]
  show Ideal.ofBits .f32 0x00000000#32 + _ = _
  rw [Ideal.ofBits_zero_f32, zero_add]
  refine Finset.sum_congr rfl fun k _ => congrArg y ?_
  exact funext fun a => Fin.ext (by match a with | ⟨0, _⟩ => rfl | ⟨1, _⟩ => rfl)

variable (m : (ℓ : Loc nD τ sig) → Buf (Elt Ideal) ℓ)

/-- What the region finds in its third operand, at `(0, q)`: the squared norm of row `q` of `w`. -/
theorem norms_entry (c : Dev nD) (q : Fin 4096) :
    (V m c main_v2 : S1x4096.Idx → EReal) (ix2 (0 : Fin 1) q)
      = SqDist.dot (m ((c : Thread nD τ).loc main_arg1)) (m ((c : Thread nD τ).loc main_arg1)) q q := by
  have e : (V m c main_v2 : S1x4096.Idx → EReal)
      = shapeCast S1x4096 (Host.reduceAdd (F := Ideal) (mulf (m ((c : Thread nD τ).loc main_arg1)) (m ((c : Thread nD τ).loc main_arg1)))
          (constant (F := Ideal) S_ .f32 0x00000000#32) reducesTo_S4096x64_S4096_d1 h_S_) shapeCasts_S4096_S1x4096 := by
    dsimp only [Gen.V, Gen.hostOps0]
    after_results
    rfl
  rw [e]
  refine (shapeCast_a_1a_apply _ _ (0 : Fin 1) q).trans ?_
  exact host_row_sum _ q

end Cert.KernelIdeal.Norms

end
-- ==== Proof.Blocks.lean ====
/-
  From the blocks the grid writes to the whole result array.

  The grid has 32 points. Point `t` stages rows `1024·t … 1024·t + 1023` of `x`, all of `w`, and the row vector of squared
  norms of the rows of `w`, and writes back rows `1024·t … 1024·t + 1023` of the result, all 4096 columns. By the entry
  formula of the body, what it writes at `(p, q)` of its block is `SqDist.entry x w (1024·t + p) q`: the block of
  `SqDist.logits x w` at point `t`. Row `r` of the result lies in the block of point `r / 1024`, so the 32 blocks cover the
  array, and after the run the array is `SqDist.logits x w`.
-/
import proofs.«140458_j12446815224431_2_alg».proof.Proof.Gen.KernelIdeal.Value
import proofs.«140458_j12446815224431_2_alg».proof.Proof.KernelEntry
import proofs.«140458_j12446815224431_2_alg».proof.Proof.Norms
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the block of `x` and the block of the result at block row `t`, the other
    two windows at their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of `x` at point `t` is row `1024·t + p` of `x`. -/
theorem x_block (c : Dev nD) (t : Fin cfg0.N) (p : Fin 1024) (k : Fin 64) (hr : t.val * 1024 + p.val < 32768) :
    (iblk m c 0 t : Vec Ideal S1024x64 .f32) (ix2 p k) = (m ((c : Thread nD τ).loc main_arg0) : S32768x64.Idx → EReal) (ix2 ⟨t.val * 1024 + p.val, hr⟩ k) := by
  obtain ⟨a0, a1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 64 + 1 * k.val = k.val; omega

/-- The block of `w` at any point is `w`. -/
theorem w_block (c : Dev nD) (t : Fin cfg0.N) (q : Fin 4096) (k : Fin 64) :
    (iblk m c 1 t : Vec Ideal S4096x64 .f32) (ix2 q k) = (m ((c : Thread nD τ).loc main_arg1) : S4096x64.Idx → EReal) (ix2 q k) := by
  obtain ⟨-, -, b0, b1, -⟩ := block_indices t
  show V m c main_arg1 (((cfg0.win 1).blk t).view.emb (ix2 q k)) = _
  rw [V_main_arg1]
  refine congrArg _ (funext fun a => Fin.ext ?_)
  match a with
  | ⟨0, _⟩ => show win0_1.index t (0 : Fin 2) * 4096 + 1 * q.val = q.val; omega
  | ⟨1, _⟩ => show win0_1.index t (1 : Fin 2) * 64 + 1 * k.val = k.val; omega

/-- The block of the row vector at any point is the row vector: the squared norms of the rows of `w`. -/
theorem norms_block (c : Dev nD) (t : Fin cfg0.N) (q : Fin 4096) :
    (iblk m c 2 t : Vec Ideal S1x4096 .f32) (ix2 (0 : Fin 1) q)
      = SqDist.dot (m ((c : Thread nD τ).loc main_arg1)) (m ((c : Thread nD τ).loc main_arg1)) q q := by
  obtain ⟨-, -, -, -, n0, n1, -⟩ := block_indices t
  refine Eq.trans ?_ (Norms.norms_entry m c q)
  show V m c main_v2 (((cfg0.win 2).blk t).view.emb (ix2 (0 : Fin 1) q)) = V m c main_v2 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 4096 + 1 * q.val = q.val; omega

/-- WHAT POINT `t` WRITES BACK is block `t` of `SqDist.logits x w`. -/
theorem flushed_eq (c : Dev nD) (t : Fin cfg0.N) :
    (dats m 0 c).flushed 3 t = ((cfg0.win 3).blk t).view.read (Elt Ideal)
      (SqDist.logits (m ((c : Thread nD τ).loc main_arg0)) (m ((c : Thread nD τ).loc main_arg1))) := by
  rw [Value.flushed3]
  unfold out0_3
  rw [View.canon_unit_zero zero_offsets]
  simp only [View.ld_unit_zero (S := S1024x64) zero_offsets, View.ld_unit_zero (S := S4096x64) zero_offsets,
    View.ld_unit_zero (S := S1x4096) zero_offsets]
  have hN : grid0.N = 32 := N_0
  have ht : t.val < 32 := Nat.lt_of_lt_of_eq t.isLt hN
  obtain ⟨-, -, -, -, -, -, o0, o1⟩ := block_indices t
  funext y
  obtain ⟨p, q, rfl⟩ : ∃ (p : Fin 1024) (q : Fin 4096), y = ix2 p q := ⟨y 0, y 1, eq_ix2 y⟩
  have hr : t.val * 1024 + p.val < 32768 := by have := p.isLt; omega
  have he : ((cfg0.win 3).blk t).view.emb (ix2 p q) = ix2 (⟨t.val * 1024 + p.val, hr⟩ : Fin 32768) q :=
    funext fun a => Fin.ext (by
      match a with
      | ⟨0, _⟩ => show win0_3.index t (0 : Fin 2) * 1024 + 1 * p.val = t.val * 1024 + p.val; omega
      | ⟨1, _⟩ => show win0_3.index t (1 : Fin 2) * 4096 + 1 * q.val = q.val; omega)
  show k0_pay1 (iblk m c 0 t) (iblk m c 1 t) (iblk m c 2 t) (ix2 p q) = SqDist.logits _ _ (((cfg0.win 3).blk t).view.emb (ix2 p q))
  rw [he, SqDist.logits_ix2]
  refine (Entry.pay_entry (iblk m c 0 t) (iblk m c 1 t) (iblk m c 2 t) p q).trans ?_
  unfold SqDist.entry
  refine congrArg₂ (· - ·) (congrArg₂ (· - ·) (congrArg₂ (· * ·) rfl ?_) ?_) ?_
  · unfold SqDist.dot
    exact Finset.sum_congr rfl fun k _ => by rw [x_block m c t p k hr, w_block m c t q k]
  · unfold SqDist.dot
    exact Finset.sum_congr rfl fun k _ => by rw [x_block m c t p k hr]
  · exact norms_block m c t q

/-- An index of the result is in point `t`'s block iff each coordinate is in the block's range on its axis. -/
theorem mem_blk (t : Fin cfg0.N) (i : S32768x4096.Idx) :
    i ∈ ((cfg0.win 3).blk t).view.set ↔ ∀ a : Fin 2, win0_3.index t a * S1024x4096.size a ≤ (i a).val ∧ (i a).val < win0_3.index t a * S1024x4096.size a + S1024x4096.size a := by
  show i ∈ ((View.whole main_v3).slice (win0_3.rect t)).set ↔ _
  rw [View.set_slice_whole, Rect.mem_set_unit]
  exact Iff.rfl

/-- Every index of the result is in some point's block: row `r` in that of point `r / 1024`. -/
theorem covered (i : S32768x4096.Idx) : ∃ t : Fin cfg0.N, (cfg0.win 3).flush t = true ∧ i ∈ ((cfg0.win 3).blk t).view.set := by
  have hi0 : (i 0).val < 32768 := (i 0).isLt
  have hi1 : (i 1).val < 4096 := (i 1).isLt
  have hN : grid0.N = 32 := N_0
  have hlt : (i 0).val / 1024 < cfg0.N := by show _ < grid0.N; rw [hN]; omega
  obtain ⟨-, -, -, -, -, -, o0, o1⟩ := block_indices ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [o0]; show (i 0).val / 1024 * 1024 ≤ (i 0).val ∧ (i 0).val < (i 0).val / 1024 * 1024 + 1024; omega
  | ⟨1, _⟩ =>
    show win0_3.index ⟨(i 0).val / 1024, hlt⟩ (1 : Fin 2) * 4096 ≤ (i 1).val ∧ (i 1).val < win0_3.index ⟨(i 0).val / 1024, hlt⟩ (1 : Fin 2) * 4096 + 4096
    rw [o1]; omega

/-- THE RESULT ARRAY after the run is `SqDist.logits x w`. -/
theorem final (c : Dev nD) : (dats m 0 c).arrAt 3 cfg0.N
    = SqDist.logits (m ((c : Thread nD τ).loc main_arg0)) (m ((c : Thread nD τ).loc main_arg1)) :=
  (dats m 0 c).arrAt_eq_of_cover 3 _ (fun t _ => flushed_eq m c t) covered

/-- The run, read: the result array at `SqDist.logits` of the argument arrays, the arguments unchanged. -/
theorem run : θ_run defs (onTc (τ := τ) (main (F := Ideal))) ⟨m, fun _ => 0, ρ⟩ fun r => ∀ c : Dev nD,
      r.2.mem ((c : Thread nD τ).loc main_v3) = SqDist.logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefLogits.lean ====
/-
  The reference computes `SqDist.logits`.

  Read one operation at a time, the reference's result at row `r`, column `c` is

      2 · (∑ₖ x[r,k] · w[c,k]) − (0 + ∑ₖ x[r,k]²) − (0 + ∑ₖ w[c,k]²):

  the general matrix product contracts the rows' 64 entries, each host reduction starts from the zero word and sums a
  row of squares, the vector of row norms of `x` is repeated along the columns and that of `w` along the rows. The zero
  word is the number zero, so the two leading zeros vanish and the expression is `SqDist.entry x w r c`.
-/
import proofs.«140458_j12446815224431_2_alg».proof.Proof.Gen.ReferenceIdeal.Read
import proofs.«140458_j12446815224431_2_alg».proof.Proof.SqDist
import Idealize.ShloMosaic.Lib.ValueIdx
import Idealize.ShloMosaic.PureOps.Ideal.Laws

noncomputable section

namespace Cert.ReferenceIdeal.Logits

open Cert.ReferenceIdeal Cert.ReferenceIdeal.Read Idealize.ShloMosaic Idealize.ShloMosaic.ValueIdx

/-- The reference's last stage, as a function of the two argument arrays, is `SqDist.logits`. -/
theorem stage_eq (x : (⟨S32768x64, .f32⟩ : BufTy).Contents (Elt Ideal)) (w : (⟨S4096x64, .f32⟩ : BufTy).Contents (Elt Ideal)) :
    val_main_v12 (F := Ideal) x w = SqDist.logits x w := by
  funext i
  obtain ⟨r, c, rfl⟩ : ∃ (r : Fin 32768) (c : Fin 4096), i = ix2 r c := ⟨i 0, i 1, eq_ix2 i⟩
  -- the rows each operand is read at
  have e4l : ∀ k : Fin 64, lidx_main_v4 (ix2 r c) k = ix2 r k := fun k =>
    funext fun a => Fin.ext (by match a with | ⟨0, _⟩ => rfl | ⟨1, _⟩ => rfl)
  have e4r : ∀ k : Fin 64, ridx_main_v4 (ix2 r c) k = ix2 c k := fun k =>
    funext fun a => Fin.ext (by match a with | ⟨0, _⟩ => rfl | ⟨1, _⟩ => rfl)
  have e1 : ∀ k : Fin 64, idx_main_v1 (idx_main_v7 (idx_main_v8 (ix2 r c))) k = ix2 r k := fun k =>
    funext fun a => Fin.ext (by match a with | ⟨0, _⟩ => rfl | ⟨1, _⟩ => rfl)
  have e3 : ∀ k : Fin 64, idx_main_v3 (idx_main_v10 (idx_main_v11 (ix2 r c))) k = ix2 c k := fun k =>
    funext fun a => Fin.ext (by match a with | ⟨0, _⟩ => rfl | ⟨1, _⟩ => rfl)
  rw [val_main_v12_apply, val_main_v9_apply, val_main_v6_apply, val_main_v5_apply, val_main_cst_1_apply,
    val_main_v4_apply, val_main_v8_apply, val_main_v7_apply, val_main_v1_apply, val_main_cst_apply,
    val_main_v11_apply, val_main_v10_apply, val_main_v3_apply, val_main_cst_0_apply]
  simp only [val_main_v0_apply, val_main_v2_apply, e4l, e4r, e1, e3, Ideal.mulf_def, Ideal.subf_def, Ideal.ofBits_def,
    Ideal.ofBits_zero_f32, zero_add]
  rfl

end Cert.ReferenceIdeal.Logits

end
-- ==== Proof.lean ====
/-
  The kernel and its reference compute the same array on the extended reals.

  For `x` of 32768 rows and `w` of 4096 rows, each row of 64 entries, both programs end with the 32768 × 4096 array whose
  entry at `(r, c)` is

      2 · ⟨x_r, w_c⟩ − ⟨x_r, x_r⟩ − ⟨w_c, w_c⟩        (`SqDist.entry`),

  the negated squared distance between row `r` of `x` and row `c` of `w`, expanded.

  The reference writes this expression directly, one host operation per step (`RefLogits`). The kernel computes the squared
  norms of the rows of `w` on the host (`Norms`), then walks 32 blocks of 1024 rows of `x`; in each block the body forms
  the matrix product with `w`, the row sums of the squares of the block, and the same expression (`KernelEntry`); the 32
  blocks written back tile the result (`Blocks`). On the extended reals a matrix product into a zero accumulator, a lane
  reduction and a host reduction from zero are all plain finite sums, so the two expressions are the same term for term and
  no algebraic law, and no finiteness of the inputs, is needed to join them. The idealization rewrote nothing in the kernel,
  so there is nothing to preserve.
-/
import proofs.«140458_j12446815224431_2_alg».proof.Defs
import proofs.«140458_j12446815224431_2_alg».proof.Proof.Gen.Kernel
import proofs.«140458_j12446815224431_2_alg».proof.Proof.Gen.Kernel.Frame
import proofs.«140458_j12446815224431_2_alg».proof.Proof.Gen.KernelIdeal
import proofs.«140458_j12446815224431_2_alg».proof.Proof.Gen.KernelIdeal.Frame
import proofs.«140458_j12446815224431_2_alg».proof.Proof.Gen.KernelIdeal.Value
import proofs.«140458_j12446815224431_2_alg».proof.Proof.Gen.ReferenceIdeal
import proofs.«140458_j12446815224431_2_alg».proof.Proof.Gen.ReferenceIdeal.Run
import proofs.«140458_j12446815224431_2_alg».proof.Proof.Gen.ReferenceIdeal.Read
import proofs.«140458_j12446815224431_2_alg».proof.Proof.Gen.Pre_finite_inputs
import proofs.«140458_j12446815224431_2_alg».proof.Proof.Blocks
import proofs.«140458_j12446815224431_2_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its arguments as they were: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten, so nothing is to be preserved. -/
theorem preserves : Cert.preserves_Kernel_KernelIdeal := trivial

/-- From memories that agree on `x` and `w`, both programs end with `SqDist.logits x w`. -/
theorem algebraic : Cert.algebraic_KernelIdeal_ReferenceIdeal := by
  intro m ρ m' ρ' _ hagree
  refine ⟨fun c => SqDist.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.Logits.stage_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
